-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8x4096x256 : Shape := ⟨3, ![8, 4096, 256]⟩
abbrev S1024x1 : Shape := ⟨2, ![1024, 1]⟩
abbrev S1 : Shape := ⟨1, ![1]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x4096x256 : S_.BroadcastsInDim S8x4096x256 (![] : Fin 0 → Fin S8x4096x256.rank)
  reducesTo_S8x4096x256_S_d0_1_2 : S8x4096x256.ReducesTo [0, 1, 2] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S8x4096x512 .f32) (main_arg1 : FVec F S8x4096x256 .f32) (main_arg2 : FVec F S8x4096x256 .f32) (main_arg3 : FVec F S1024x1 .f32) (main_arg4 : FVec F S1 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x256 .f32 := Host.absf main_arg1
  let main_cst_0 : FVec F S_ .f32 := constant S_ .f32 0x7F800000#32
  let main_v5 : FVec F S8x4096x256 .f32 := broadcastInDim S8x4096x256 ![] bcast_S_S8x4096x256 main_cst_0
  let main_v6 : IVec S8x4096x256 1 := cmpf .olt main_v4 main_v5
  let main_c_1 : IVec S_ 1 := constantI S_ 1 1#1
  let main_v7 : IVec S_ 1 := (fun x v => Host.reduce IntOp.andi x v reducesTo_S8x4096x256_S_d0_1_2 h_S_) main_v6 main_c_1
  let main_v8 : IVec S_ 1 := andi main_v3 main_v7
  let main_v9 : FVec F S8x4096x256 .f32 := Host.absf main_arg2
  let main_cst_2 : FVec F S_ .f32 := constant S_ .f32 0x7F800000#32
  let main_v10 : FVec F S8x4096x256 .f32 := broadcastInDim S8x4096x256 ![] bcast_S_S8x4096x256 main_cst_2
  let main_v11 : IVec S8x4096x256 1 := cmpf .olt main_v9 main_v10
  let main_c_3 : IVec S_ 1 := constantI S_ 1 1#1
  let main_v12 : IVec S_ 1 := (fun x v => Host.reduce IntOp.andi x v reducesTo_S8x4096x256_S_d0_1_2 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg4 main_v13 main_v16
-- ==== Kernel.lean ====
abbrev S8x4096x512 : Shape := ⟨3, ![8, 4096, 512]⟩
abbrev S8x4096x256 : Shape := ⟨3, ![8, 4096, 256]⟩
abbrev S1024x1 : Shape := ⟨2, ![1024, 1]⟩
abbrev S1 : Shape := ⟨1, ![1]⟩
abbrev S256x1 : Shape := ⟨2, ![256, 1]⟩
abbrev S256 : Shape := ⟨1, ![256]⟩
abbrev S1x256 : Shape := ⟨2, ![1, 256]⟩
abbrev S512x1 : Shape := ⟨2, ![512, 1]⟩
abbrev S512 : Shape := ⟨1, ![512]⟩
abbrev S1x512 : Shape := ⟨2, ![1, 512]⟩
abbrev S1x1 : Shape := ⟨2, ![1, 1]⟩
abbrev S4096x8x512 : Shape := ⟨3, ![4096, 8, 512]⟩
abbrev S8x256x512 : Shape := ⟨3, ![8, 256, 512]⟩
abbrev S8x256x256 : Shape := ⟨3, ![8, 256, 256]⟩
abbrev S256x8x512 : Shape := ⟨3, ![256, 8, 512]⟩
abbrev S1x1x256 : Shape := ⟨3, ![1, 1, 256]⟩
abbrev S1x1x512 : Shape := ⟨3, ![1, 1, 512]⟩
abbrev S8x256 : Shape := ⟨2, ![8, 256]⟩
abbrev S8x256x1 : Shape := ⟨3, ![8, 256, 1]⟩
abbrev S1x1x1 : Shape := ⟨3, ![1, 1, 1]⟩

abbrev nBuf : Space → Nat
  | .hbm => 16
  | .vmem => 12
  | .smem => 0
  | _ => 0

abbrev bufTy : (tb : Table) → Fin (tcTables nBuf tb) → BufTy
  | .hbm, ⟨0, _⟩ => ⟨S8x4096x512, .f32⟩
  | .hbm, ⟨1, _⟩ => ⟨S8x4096x256, .f32⟩
  | .hbm, ⟨2, _⟩ => ⟨S8x4096x256, .f32⟩
  | .hbm, ⟨3, _⟩ => ⟨S1024x1, .f32⟩
  | .hbm, ⟨4, _⟩ => ⟨S1, .f32⟩
  | .hbm, ⟨5, _⟩ => ⟨S256x1, .f32⟩
  | .hbm, ⟨6, _⟩ => ⟨S256, .f32⟩
  | .hbm, ⟨7, _⟩ => ⟨S1x256, .f32⟩
  | .hbm, ⟨8, _⟩ => ⟨S256x1, .f32⟩
  | .hbm, ⟨9, _⟩ => ⟨S256, .f32⟩
  | .hbm, ⟨10, _⟩ => ⟨S1x256, .f32⟩
  | .hbm, ⟨11, _⟩ => ⟨S512x1, .f32⟩
  | .hbm, ⟨12, _⟩ => ⟨S512, .f32⟩
  | .hbm, ⟨13, _⟩ => ⟨S1x512, .f32⟩
  | .hbm, ⟨14, _⟩ => ⟨S1x1, .f32⟩
  | .hbm, ⟨15, _⟩ => ⟨S4096x8x512, .f32⟩
  | .local _ .vmem, ⟨0, _⟩ => ⟨S8x256x512, .f32⟩
  | .local _ .vmem, ⟨1, _⟩ => ⟨S8x256x512, .f32⟩
  | .local _ .vmem, ⟨2, _⟩ => ⟨S8x256x256, .f32⟩
  | .local _ .vmem, ⟨3, _⟩ => ⟨S8x256x256, .f32⟩
  | .local _ .vmem, ⟨4, _⟩ => ⟨S8x256x256, .f32⟩
  | .local _ .vmem, ⟨5, _⟩ => ⟨S8x256x256, .f32⟩
  | .local _ .vmem, ⟨6, _⟩ => ⟨S1x256, .f32⟩
  | .local _ .vmem, ⟨7, _⟩ => ⟨S1x256, .f32⟩
  | .local _ .vmem, ⟨8, _⟩ => ⟨S1x512, .f32⟩
  | .local _ .vmem, ⟨9, _⟩ => ⟨S1x1, .f32⟩
  | .local _ .vmem, ⟨10, _⟩ => ⟨S256x8x512, .f32⟩
  | .local _ .vmem, ⟨11, _⟩ => ⟨S256x8x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S1024x1_S256x1_0_0 : S1024x1.Slices ![0, 0] S256x1
  shapeCasts_S256x1_S256 : S256x1.ShapeCasts S256
  shapeCasts_S256_S1x256 : S256.ShapeCasts S1x256
  slices_S1024x1_S256x1_256_0 : S1024x1.Slices ![256, 0] S256x1
  slices_S1024x1_S512x1_512_0 : S1024x1.Slices ![512, 0] S512x1
  shapeCasts_S512x1_S512 : S512x1.ShapeCasts S512
  shapeCasts_S512_S1x512 : S512.ShapeCasts S1x512
  shapeCasts_S1_S1x1 : S1.ShapeCasts S1x1
  inb_S8x256x512_S8x256x512_0_0_0 : ∀ a, (![0, 0, 0] : Fin 3 → Nat) a + S8x256x512.size a ≤ S8x256x512.size a
  h_S8x256x512 : 0 < S8x256x512.numel
  inb_S8x256x256_S8x256x256_0_0_0 : ∀ a, (![0, 0, 0] : Fin 3 → Nat) a + S8x256x256.size a ≤ S8x256x256.size a
  h_S8x256x256 : 0 < S8x256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x256 : S1x256.ShapeCasts S1x1x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  broadcasts_S1x1x256_S8x256x256 : S1x1x256.Broadcasts S8x256x256
  reduces_S8x256x256_S8x256 : S8x256x256.Reduces [2] S8x256
  shapeCasts_S8x256_S8x256x1 : S8x256.ShapeCasts S8x256x1
  broadcasts_S1x1x512_S8x256x512 : S1x1x512.Broadcasts S8x256x512
  reduces_S8x256x512_S8x256 : S8x256x512.Reduces [2] S8x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S1x1x1 : S1x1.ShapeCasts S1x1x1
  broadcasts_S1x1x1_S8x256x1 : S1x1x1.Broadcasts S8x256x1
  broadcasts_S8x256x1_S8x256x512 : S8x256x1.Broadcasts S8x256x512
  transposes_S8x256x512_p1_0_2_S256x8x512 : S8x256x512.Transposes [1, 0, 2] S256x8x512
  inb_S256x8x512_S256x8x512_0_0_0 : ∀ a, (![0, 0, 0] : Fin 3 → Nat) a + S256x8x512.size a ≤ S256x8x512.size a
  h_S256x8x512 : 0 < S256x8x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S8x4096x512.size a
  hwx0_0 : ∀ i : grid0.Coords, EltTy.bits .f32 = 32 ∨ (Rect.block (s := S8x4096x512) S8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S8x4096x256.size a
  hwx0_1 : ∀ i : grid0.Coords, EltTy.bits .f32 = 32 ∨ (Rect.block (s := S8x4096x256) S8x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x256.size a ≤ S8x4096x256.size a
  hwx0_2 : ∀ i : grid0.Coords, EltTy.bits .f32 = 32 ∨ (Rect.block (s := S8x4096x256) S8x256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x8x512.size a ≤ S4096x8x512.size a
  hwx0_7 : ∀ i : grid0.Coords, EltTy.bits .f32 = 32 ∨ (Rect.block (s := S4096x8x512) S256x8x512.size (cc0_transform_7 i) (hinb0_7 i)).WholeWords (EltTy.packing .f32)

variable [Facts₀]

abbrev win0_0 : Pipeline.Window sig grid0 :=
  Pipeline.Window.ofSpec (Memref.whole main_arg0) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S256x8x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8x4096x256 : Shape := ⟨3, ![8, 4096, 256]⟩
abbrev S1024x1 : Shape := ⟨2, ![1024, 1]⟩
abbrev S1 : Shape := ⟨1, ![1]⟩
abbrev S32768x512 : Shape := ⟨2, ![32768, 512]⟩
abbrev S_ : Shape := ⟨0, ![]⟩
abbrev S32768 : Shape := ⟨1, ![32768]⟩
abbrev S32768x1 : Shape := ⟨2, ![32768, 1]⟩
abbrev S32768x1024 : Shape := ⟨2, ![32768, 1024]⟩
abbrev S1x1 : Shape := ⟨2, ![1, 1]⟩
abbrev S4096x8x512 : Shape := ⟨3, ![4096, 8, 512]⟩

abbrev nBuf : Space → Nat
  | .hbm => 49
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x256, .f32⟩
  | .hbm, ⟨2, _⟩ => ⟨S8x4096x256, .f32⟩
  | .hbm, ⟨3, _⟩ => ⟨S1024x1, .f32⟩
  | .hbm, ⟨4, _⟩ => ⟨S1, .f32⟩
  | .hbm, ⟨5, _⟩ => ⟨S8x4096x512, .f32⟩
  | .hbm, ⟨6, _⟩ => ⟨S32768x512, .f32⟩
  | .hbm, ⟨7, _⟩ => ⟨S32768x512, .f32⟩
  | .hbm, ⟨8, _⟩ => ⟨S32768x512, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768, .f32⟩
  | .hbm, ⟨14, _⟩ => ⟨S_, .f32⟩
  | .hbm, ⟨15, _⟩ => ⟨S32768, .f32⟩
  | .hbm, ⟨16, _⟩ => ⟨S32768, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S32768x1, .f32⟩
  | .hbm, ⟨24, _⟩ => ⟨S32768x512, .f32⟩
  | .hbm, ⟨25, _⟩ => ⟨S32768x512, .f32⟩
  | .hbm, ⟨26, _⟩ => ⟨S32768x1024, .f32⟩
  | .hbm, ⟨27, _⟩ => ⟨S32768x1, .f32⟩
  | .hbm, ⟨28, _⟩ => ⟨S1x1, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x512, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S8x4096x512, .f32⟩
  | .hbm, ⟨48, _⟩ => ⟨S4096x8x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  concatenates_S8x4096x256_S8x4096x256_S8x4096x512_d2 : Shape.Concatenates [S8x4096x256, S8x4096x256] S8x4096x512 2
  shapeCasts_S8x4096x512_S32768x512 : S8x4096x512.ShapeCasts S32768x512
  reducesTo_S32768x512_S32768_d1 : S32768x512.ReducesTo [1] S32768
  h_S_ : 0 < S_.numel
  bcast_S32768_S32768x1_0 : S32768.BroadcastsInDim S32768x1 (![0] : Fin 1 → Fin S32768x1.rank)
  reducesTo_S32768x1_S32768_d1 : S32768x1.ReducesTo [1] S32768
  bcast_S_S32768 : S_.BroadcastsInDim S32768 (![] : Fin 0 → Fin S32768.rank)
  bcast_S32768x1_S32768x512_0_1 : S32768x1.BroadcastsInDim S32768x512 (![0, 1] : Fin 2 → Fin S32768x512.rank)
  concatenates_S32768x512_S32768x512_S32768x1024_d1 : Shape.Concatenates [S32768x512, S32768x512] S32768x1024 1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S32768x1 : S_.BroadcastsInDim S32768x1 (![] : Fin 0 → Fin S32768x1.rank)
  shapeCasts_S32768x512_S8x4096x512 : S32768x512.ShapeCasts S8x4096x512
  transposes_S8x4096x512_S4096x8x512_1_0_2 : S8x4096x512.Transposes [1, 0, 2] S4096x8x512
  dot_S32768x1024_S1024x1_S32768x1_1_0_0_1_n_n_wf : DotDims.WF S32768x1024 S1024x1 S32768x1 [1] [0] [0] [1] [] []

variable [Facts₀]

def dot_S32768x1024_S1024x1_S32768x1_1_0_0_1_n_n : DotDims S32768x1024 S1024x1 S32768x1 where
  lhsContracting := [1]
  rhsContracting := [0]
  lhsNonContracting := [0]
  rhsNonContracting := [1]
  lhsBatch := []
  rhsBatch := []
  wf := dot_S32768x1024_S1024x1_S32768x1_1_0_0_1_n_n_wf

class Facts : Prop extends Facts₀ where

variable [Facts]
-- ==== Proof.GateSpec.lean ====
/-
  The function both programs compute, stated once over the argument arrays.

  For a batch entry `b`, a position `s` and a feature `h` the result at `(s, b, h)` is the blend
  `(1 - c) * x[b, s, h] + c * x[b, s, h]` with the scalar gate `c = logistic z`, where the score `z` is the
  dot product of the 1024 features `[e[b, s, :], d[b, s, :], x[b, s, :]]` with the weight column, plus the bias:
  `z = ((Σ_k e[b,s,k] w[k] + Σ_k d[b,s,k] w[256 + k]) + Σ_k x[b,s,k] w[512 + k]) + β`.
  The grouping of the three partial sums is the one in which the kernel adds them; on the extended reals
  addition is associative and commutative, so the reference's single sum over 1024 terms is the same number.

  Everything is said through `rowGate`, the blend for ONE row: the row's three feature slices, the three
  matching slices of the weight column, and the bias. The array-level function `gated` feeds it the rows of
  the argument arrays.
-/
import Idealize.ShloMosaic.PureOps.Ideal
import Idealize.ShloMosaic.Lib.ValueIdx

noncomputable section

namespace Cert.NodeGate

open Idealize.ShloMosaic Idealize.ShloMosaic.ValueIdx
open scoped BigOperators

/-- The feature array `x`: batch × position × 512 features. -/
abbrev SX : Shape := ⟨3, ![8, 4096, 512]⟩
/-- Each of the two node arrays `e`, `d`: batch × position × 256 features. -/
abbrev SN : Shape := ⟨3, ![8, 4096, 256]⟩
/-- The weight column: 1024 × 1. -/
abbrev SW : Shape := ⟨2, ![1024, 1]⟩
/-- The bias: one number. -/
abbrev SB : Shape := ⟨1, ![1]⟩
/-- The result: position × batch × 512 features. -/
abbrev SO : Shape := ⟨3, ![4096, 8, 512]⟩

/-- The score of one row: its three partial dot products, added left to right, plus the bias. -/
def rowScore (re rd : Fin 256 → EReal) (rx : Fin 512 → EReal) (we wd : Fin 256 → EReal) (wx : Fin 512 → EReal)
    (β : EReal) : EReal :=
  ((∑ k, re k * we k + ∑ k, rd k * wd k) + ∑ k, rx k * wx k) + β

/-- THE BLEND FOR ONE ROW, at feature `h`: `(1 - c) * x_h + c * x_h` with `c = logistic (score)`. -/
def rowGate (re rd : Fin 256 → EReal) (rx : Fin 512 → EReal) (we wd : Fin 256 → EReal) (wx : Fin 512 → EReal)
    (β : EReal) (h : Fin 512) : EReal :=
  (1 - Ideal.logistic (rowScore re rd rx we wd wx β)) * rx h
    + Ideal.logistic (rowScore re rd rx we wd wx β) * rx h

/-- Row `k` of the weight column. -/
abbrev wrow (w : SW.Idx → EReal) (k : Nat) (hk : k < 1024) : EReal := w (ix2 (⟨k, hk⟩ : Fin 1024) (0 : Fin 1))

/-- The blend at position `s`, batch entry `b`, feature `h`, of the argument arrays. -/
def gatedAt (x : SX.Idx → EReal) (e d : SN.Idx → EReal) (w : SW.Idx → EReal) (β : SB.Idx → EReal)
    (s : Fin 4096) (b : Fin 8) (h : Fin 512) : EReal :=
  rowGate (fun k => e (ix3 b s k)) (fun k => d (ix3 b s k)) (fun k => x (ix3 b s k))
    (fun k => wrow w k.val (by have := k.isLt; omega))
    (fun k => wrow w (256 + k.val) (by have := k.isLt; omega))
    (fun k => wrow w (512 + k.val) (by have := k.isLt; omega))
    (β (ix1 (0 : Fin 1))) h

/-- The whole result array. -/
def gated (x : SX.Idx → EReal) (e d : SN.Idx → EReal) (w : SW.Idx → EReal) (β : SB.Idx → EReal) :
    SO.Idx → EReal :=
  fun i => gatedAt x e d w β (i 0) (i 1) (i 2)

theorem gated_ix3 (x : SX.Idx → EReal) (e d : SN.Idx → EReal) (w : SW.Idx → EReal) (β : SB.Idx → EReal)
    (s : Fin 4096) (b : Fin 8) (h : Fin 512) :
    gated x e d w β (ix3 s b h) = gatedAt x e d w β s b h := rfl

end Cert.NodeGate

end
-- ==== Proof.KernelBlock.lean ====
/-
  What the kernel's body leaves in one output block, read at an index.

  The body loads a block of 256 positions of each of `x`, `e`, `d` (all 8 batch entries), the three weight
  rows and the bias; forms for every (batch entry, position) the three lane sums `Σ_k e·w_e`, `Σ_k d·w_d`,
  `Σ_k x·w_x` with the weight row broadcast over the block; adds them and the bias; takes the logistic; blends;
  and transposes the two leading axes. So the stored block at (position `s`, batch entry `b`, feature `h`) is
  the row blend `rowGate` of row `(b, s)` of the loaded blocks.
-/
import proofs.«166364_j53884659695800_1_alg».proof.Proof.PatchedKernelValue
import proofs.«166364_j53884659695800_1_alg».proof.Proof.GateSpec
import Idealize.ShloMosaic.Lib.ValueIdx
import Idealize.ShloMosaic.Lib.Pipeline.Value
import Idealize.ShloMosaic.PureOps.Ideal.Laws
import Idealize.ShloMosaic.Lib.IdealHost

noncomputable section

namespace Cert.KernelIdeal.Block

open Cert.KernelIdeal Cert.KernelIdeal.Gen Idealize.ShloMosaic Idealize.ShloMosaic.ValueIdx Cert.NodeGate
open scoped BigOperators

/-- A weight row `[1, 256]`, recast to `[1, 1, 256]` and broadcast over the block, reads the row at the lane. -/
theorem bcast_row256 (Q : FVec Ideal S1x256 .f32) (h1 : S1x256.ShapeCasts S1x256) (h2 : S1x256.ShapeCasts S1x1x256)
    (h3 : S1x1x256.Broadcasts S8x256x256) (b : Fin 8) (s : Fin 256) (k : Fin 256) :
    broadcastTo S8x256x256 (shapeCast S1x1x256 (shapeCast S1x256 Q h1) h2) h3 (ix3 b s k) = Q (ix2 (0 : Fin 1) k) := by
  refine (broadcastTo_apply _ h3 (ix3 b s k) (ix3 (0 : Fin 1) (0 : Fin 1) k) (fun a => ?_)).trans ?_
  · match a with
    | ⟨0, _⟩ => show 0 = (if (1 : Nat) = 1 then 0 else b.val); rw [if_pos rfl]
    | ⟨1, _⟩ => show 0 = (if (1 : Nat) = 1 then 0 else s.val); rw [if_pos rfl]
    | ⟨2, _⟩ => show k.val = (if (256 : Nat) = 1 then 0 else k.val); rw [if_neg (by decide)]
  refine (shapeCast_apply _ h2 (ix3 (0 : Fin 1) (0 : Fin 1) k) (ix2 (0 : Fin 1) k) ?_).trans ?_
  · rw [Shape.rowMajor_val_two, Shape.rowMajor_val_three]
    show 0 * 256 + k.val = (0 * 1 + 0) * 256 + k.val
    omega
  rw [shapeCast_self]

/-- The same for the `[1, 512]` row. -/
theorem bcast_row512 (Q : FVec Ideal S1x512 .f32) (h1 : S1x512.ShapeCasts S1x512) (h2 : S1x512.ShapeCasts S1x1x512)
    (h3 : S1x1x512.Broadcasts S8x256x512) (b : Fin 8) (s : Fin 256) (k : Fin 512) :
    broadcastTo S8x256x512 (shapeCast S1x1x512 (shapeCast S1x512 Q h1) h2) h3 (ix3 b s k) = Q (ix2 (0 : Fin 1) k) := by
  refine (broadcastTo_apply _ h3 (ix3 b s k) (ix3 (0 : Fin 1) (0 : Fin 1) k) (fun a => ?_)).trans ?_
  · match a with
    | ⟨0, _⟩ => show 0 = (if (1 : Nat) = 1 then 0 else b.val); rw [if_pos rfl]
    | ⟨1, _⟩ => show 0 = (if (1 : Nat) = 1 then 0 else s.val); rw [if_pos rfl]
    | ⟨2, _⟩ => show k.val = (if (512 : Nat) = 1 then 0 else k.val); rw [if_neg (by decide)]
  refine (shapeCast_apply _ h2 (ix3 (0 : Fin 1) (0 : Fin 1) k) (ix2 (0 : Fin 1) k) ?_).trans ?_
  · rw [Shape.rowMajor_val_two, Shape.rowMajor_val_three]
    show 0 * 512 + k.val = (0 * 1 + 0) * 512 + k.val
    omega
  rw [shapeCast_self]

/-- THE LANE SUM of a block times a broadcast weight row, at (batch entry, position): the row's dot product. -/
theorem lane_sum256 (P : FVec Ideal S8x256x256 .f32) (Q : FVec Ideal S1x256 .f32) (h1 : S1x256.ShapeCasts S1x256)
    (h2 : S1x256.ShapeCasts S1x1x256) (h3 : S1x1x256.Broadcasts S8x256x256) (hr : S8x256x256.Reduces [2] S8x256)
    (hφ : FKind.Formats .f32) (hacc : (0x00000000#32 : BitVec 32) = FKind.add.neutral .f32 hφ) (b : Fin 8) (s : Fin 256) :
    multiReduction .add [2] S8x256 (mulf P (broadcastTo S8x256x256 (shapeCast S1x1x256 (shapeCast S1x256 Q h1) h2) h3))
        0x00000000#32 hr hφ hacc (ix2 b s)
      = ∑ k : Fin 256, P (ix3 b s k) * Q (ix2 (0 : Fin 1) k) := by
  refine (Ideal.multiReduction_add_single _ _ hr hφ hacc (ix2 b s)).trans ?_
  refine Finset.sum_congr rfl fun (k : Fin 256) _ => ?_
  have hl : hr.lift (ix2 b s) k = ix3 b s k := by
    funext a; apply Fin.ext
    match a with
    | ⟨0, _⟩ => rfl
    | ⟨1, _⟩ => rfl
    | ⟨2, _⟩ => rfl
  rw [hl]
  show P (ix3 b s k) * _ = _
  rw [bcast_row256]

theorem lane_sum512 (P : FVec Ideal S8x256x512 .f32) (Q : FVec Ideal S1x512 .f32) (h1 : S1x512.ShapeCasts S1x512)
    (h2 : S1x512.ShapeCasts S1x1x512) (h3 : S1x1x512.Broadcasts S8x256x512) (hr : S8x256x512.Reduces [2] S8x256)
    (hφ : FKind.Formats .f32) (hacc : (0x00000000#32 : BitVec 32) = FKind.add.neutral .f32 hφ) (b : Fin 8) (s : Fin 256) :
    multiReduction .add [2] S8x256 (mulf P (broadcastTo S8x256x512 (shapeCast S1x1x512 (shapeCast S1x512 Q h1) h2) h3))
        0x00000000#32 hr hφ hacc (ix2 b s)
      = ∑ k : Fin 512, P (ix3 b s k) * Q (ix2 (0 : Fin 1) k) := by
  refine (Ideal.multiReduction_add_single _ _ hr hφ hacc (ix2 b s)).trans ?_
  refine Finset.sum_congr rfl fun (k : Fin 512) _ => ?_
  have hl : hr.lift (ix2 b s) k = ix3 b s k := by
    funext a; apply Fin.ext
    match a with
    | ⟨0, _⟩ => rfl
    | ⟨1, _⟩ => rfl
    | ⟨2, _⟩ => rfl
  rw [hl]
  show P (ix3 b s k) * _ = _
  rw [bcast_row512]

/-- The body's scalar arithmetic, with its three sums and its literal one named: it is the row blend. -/
theorem blend_form (a0 a1 a2 β xv one A0 A1 A2 : EReal) (h0 : a0 = A0) (h1 : a1 = A1) (h2 : a2 = A2) (ho : one = 1) :
    FloatOps.addf (F := Ideal) (φ := .f32)
        (FloatOps.mulf (FloatOps.subf one (FloatOps.logistic (FloatOps.addf (FloatOps.addf (FloatOps.addf a0 a1) a2) β))) xv)
        (FloatOps.mulf (FloatOps.logistic (FloatOps.addf (FloatOps.addf (FloatOps.addf a0 a1) a2) β)) xv)
      = (1 - Ideal.logistic (((A0 + A1) + A2) + β)) * xv + Ideal.logistic (((A0 + A1) + A2) + β) * xv := by
  subst h0 h1 h2 ho; rfl

/-- THE BLOCK AT AN INDEX: the generated index-by-index form of the stored block, at (position `s`, batch entry `b`,
    feature `h`), is the row blend of row `(b, s)` of the loads. -/
theorem E7_at (P0 P2 : FVec Ideal S8x256x256 .f32) (P1 P3 : FVec Ideal S1x256 .f32) (P4 : FVec Ideal S8x256x512 .f32)
    (P5 : FVec Ideal S1x512 .f32) (P6 : FVec Ideal S1x1 .f32) (s : Fin 256) (b : Fin 8) (h : Fin 512) :
    ValueP.E7 (F := Ideal) P0 P1 P2 P3 P4 P5 P6 (ix3 s b h)
      = rowGate (fun k => P0 (ix3 b s k)) (fun k => P2 (ix3 b s k)) (fun k => P4 (ix3 b s k))
          (fun k => P1 (ix2 (0 : Fin 1) k)) (fun k => P3 (ix2 (0 : Fin 1) k)) (fun k => P5 (ix2 (0 : Fin 1) k))
          (P6 (ix2 (0 : Fin 1) (0 : Fin 1))) h := by
  have i0 : ValueP.ix7_0 (ix3 s b h) = ix2 b s := funext fun a => by match a with | ⟨0, _⟩ => rfl | ⟨1, _⟩ => rfl
  have i1 : ValueP.ix7_1 (ix3 s b h) = ix2 b s := funext fun a => by match a with | ⟨0, _⟩ => rfl | ⟨1, _⟩ => rfl
  have i2 : ValueP.ix7_2 (ix3 s b h) = ix2 b s := funext fun a => by match a with | ⟨0, _⟩ => rfl | ⟨1, _⟩ => rfl
  have i3 : ValueP.ix7_3 (ix3 s b h) = ix2 (0 : Fin 1) (0 : Fin 1) := funext fun a => by match a with | ⟨0, _⟩ => rfl | ⟨1, _⟩ => rfl
  have i4 : ValueP.ix7_4 (ix3 s b h) = ix3 b s h := funext fun a => by match a with | ⟨0, _⟩ => rfl | ⟨1, _⟩ => rfl | ⟨2, _⟩ => rfl
  have i5 : ValueP.ix7_5 (ix3 s b h) = ix2 b s := funext fun a => by match a with | ⟨0, _⟩ => rfl | ⟨1, _⟩ => rfl
  have i6 : ValueP.ix7_6 (ix3 s b h) = ix2 b s := funext fun a => by match a with | ⟨0, _⟩ => rfl | ⟨1, _⟩ => rfl
  have i7 : ValueP.ix7_7 (ix3 s b h) = ix2 b s := funext fun a => by match a with | ⟨0, _⟩ => rfl | ⟨1, _⟩ => rfl
  have i8 : ValueP.ix7_8 (ix3 s b h) = ix2 (0 : Fin 1) (0 : Fin 1) := funext fun a => by match a with | ⟨0, _⟩ => rfl | ⟨1, _⟩ => rfl
  have i9 : ValueP.ix7_9 (ix3 s b h) = ix3 b s h := funext fun a => by match a with | ⟨0, _⟩ => rfl | ⟨1, _⟩ => rfl | ⟨2, _⟩ => rfl
  dsimp only [ValueP.E7]
  rw [i0, i1, i2, i3, i4, i5, i6, i7, i8, i9]
  exact blend_form _ _ _ _ _ _ _ _ _
    (lane_sum256 P0 P1 _ _ _ _ _ _ b s) (lane_sum256 P2 P3 _ _ _ _ _ _ b s) (lane_sum512 P4 P5 _ _ _ _ _ _ b s)
    Ideal.ofBits_one_f32

theorem hz3 : (![0, 0, 0] : Fin 3 → Nat) = fun _ => 0 := funext fun a => by fin_cases a <;> rfl
theorem hz2 : (![0, 0] : Fin 2 → Nat) = fun _ => 0 := funext fun a => by fin_cases a <;> rfl

/-- WHAT THE BODY LEAVES in the output buffer, from the seven input blocks, at (position, batch entry, feature). -/
theorem out_at (x0 : Vec Ideal S8x256x512 .f32) (x1 x2 : Vec Ideal S8x256x256 .f32) (x3 x4 : Vec Ideal S1x256 .f32)
    (x5 : Vec Ideal S1x512 .f32) (x6 : Vec Ideal S1x1 .f32) (s : Fin 256) (b : Fin 8) (h : Fin 512) :
    out0_7 x0 x1 x2 x3 x4 x5 x6 (ix3 s b h)
      = rowGate (fun k => x1 (ix3 b s k)) (fun k => x2 (ix3 b s k)) (fun k => x0 (ix3 b s k))
          (fun k => x3 (ix2 (0 : Fin 1) k)) (fun k => x4 (ix2 (0 : Fin 1) k)) (fun k => x5 (ix2 (0 : Fin 1) k))
          (x6 (ix2 (0 : Fin 1) (0 : Fin 1))) h := by
  unfold out0_7
  refine (ValueP.canon7_eq (View.ld x1 r0_1) (View.ld x3 r0_2) (View.ld x2 r0_1) (View.ld x4 r0_2) (View.ld x0 r0_0)
    (View.ld x5 r0_3) (View.ld x6 r0_4) (ix3 s b h)).trans ?_
  simp only [View.ld_unit_zero (S := S8x256x512) hz3, View.ld_unit_zero (S := S8x256x256) hz3,
    View.ld_unit_zero (S := S1x256) hz2, View.ld_unit_zero (S := S1x512) hz2, View.ld_unit_zero (S := S1x1) hz2]
  exact E7_at x1 x2 x3 x4 x0 x5 x6 s b h

end Cert.KernelIdeal.Block

end
-- ==== Proof.KernelHostWindows.lean ====
/-
  The four small windows of the kernel whose arrays the host program writes before the region.

  The weight column `w` (1024 × 1) is cut into rows 0–255, 256–511 and 512–1023; each cut is recast to a vector
  and then to a one-row matrix. The bias (one number) is recast to a 1 × 1 matrix. Read at an index, lane `k`
  of the three rows is `w[k]`, `w[256 + k]`, `w[512 + k]`, and the 1 × 1 matrix holds the bias.
-/
import proofs.«166364_j53884659695800_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostWindows

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- Lane `k` of the first weight row is row `k` of the weight column. -/
theorem weights_first (c : Dev nD) (k : Fin 256) :
    (V m c main_v2 : S1x256.Idx → EReal) (ix2 (0 : Fin 1) k)
      = (m ((c : Thread nD τ).loc main_arg3) : S1024x1.Idx → EReal) (ix2 (⟨k.val, by have := k.isLt; omega⟩ : Fin 1024) (0 : Fin 1)) := by
  have e : (V m c main_v2 : S1x256.Idx → EReal)
      = shapeCast S1x256 (shapeCast S256 (extractStridedSlice S256x1 ![0, 0] (m ((c : Thread nD τ).loc main_arg3))
          slices_S1024x1_S256x1_0_0) shapeCasts_S256x1_S256) shapeCasts_S256_S1x256 := by
    dsimp only [Gen.V, Gen.hostOps0]; after_results; rfl
  rw [e]
  refine (shapeCast_apply _ _ (ix2 (0 : Fin 1) k) (ix1 k) ?_).trans ?_
  · rw [Shape.rowMajor_val_one, Shape.rowMajor_val_two]; show k.val = 0 * 256 + k.val; omega
  refine (shapeCast_apply _ _ (ix1 k) (ix2 k (0 : Fin 1)) ?_).trans ?_
  · rw [Shape.rowMajor_val_two, Shape.rowMajor_val_one]; show k.val * 1 + 0 = k.val; omega
  exact slice2_axis0_apply 0 _ _ k (0 : Fin 1) _ (by show k.val = 0 + k.val; omega)

/-- Lane `k` of the second weight row is row `256 + k` of the weight column. -/
theorem weights_second (c : Dev nD) (k : Fin 256) :
    (V m c main_v5 : S1x256.Idx → EReal) (ix2 (0 : Fin 1) k)
      = (m ((c : Thread nD τ).loc main_arg3) : S1024x1.Idx → EReal) (ix2 (⟨256 + k.val, by have := k.isLt; omega⟩ : Fin 1024) (0 : Fin 1)) := by
  have e : (V m c main_v5 : S1x256.Idx → EReal)
      = shapeCast S1x256 (shapeCast S256 (extractStridedSlice S256x1 ![256, 0] (m ((c : Thread nD τ).loc main_arg3))
          slices_S1024x1_S256x1_256_0) shapeCasts_S256x1_S256) shapeCasts_S256_S1x256 := by
    dsimp only [Gen.V, Gen.hostOps0]; after_results; rfl
  rw [e]
  refine (shapeCast_apply _ _ (ix2 (0 : Fin 1) k) (ix1 k) ?_).trans ?_
  · rw [Shape.rowMajor_val_one, Shape.rowMajor_val_two]; show k.val = 0 * 256 + k.val; omega
  refine (shapeCast_apply _ _ (ix1 k) (ix2 k (0 : Fin 1)) ?_).trans ?_
  · rw [Shape.rowMajor_val_two, Shape.rowMajor_val_one]; show k.val * 1 + 0 = k.val; omega
  exact slice2_axis0_apply 256 _ _ k (0 : Fin 1) _ rfl

/-- Lane `k` of the third weight row is row `512 + k` of the weight column. -/
theorem weights_third (c : Dev nD) (k : Fin 512) :
    (V m c main_v8 : S1x512.Idx → EReal) (ix2 (0 : Fin 1) k)
      = (m ((c : Thread nD τ).loc main_arg3) : S1024x1.Idx → EReal) (ix2 (⟨512 + k.val, by have := k.isLt; omega⟩ : Fin 1024) (0 : Fin 1)) := by
  have e : (V m c main_v8 : S1x512.Idx → EReal)
      = shapeCast S1x512 (shapeCast S512 (extractStridedSlice S512x1 ![512, 0] (m ((c : Thread nD τ).loc main_arg3))
          slices_S1024x1_S512x1_512_0) shapeCasts_S512x1_S512) shapeCasts_S512_S1x512 := by
    dsimp only [Gen.V, Gen.hostOps0]; after_results; rfl
  rw [e]
  refine (shapeCast_apply _ _ (ix2 (0 : Fin 1) k) (ix1 k) ?_).trans ?_
  · rw [Shape.rowMajor_val_one, Shape.rowMajor_val_two]; show k.val = 0 * 512 + k.val; omega
  refine (shapeCast_apply _ _ (ix1 k) (ix2 k (0 : Fin 1)) ?_).trans ?_
  · rw [Shape.rowMajor_val_two, Shape.rowMajor_val_one]; show k.val * 1 + 0 = k.val; omega
  exact slice2_axis0_apply 512 _ _ k (0 : Fin 1) _ rfl

/-- The 1 × 1 matrix holds the bias. -/
theorem bias_cell (c : Dev nD) :
    (V m c main_v9 : S1x1.Idx → EReal) (ix2 (0 : Fin 1) (0 : Fin 1))
      = (m ((c : Thread nD τ).loc main_arg4) : S1.Idx → EReal) (ix1 (0 : Fin 1)) := by
  have e : (V m c main_v9 : S1x1.Idx → EReal) = shapeCast S1x1 (m ((c : Thread nD τ).loc main_arg4)) shapeCasts_S1_S1x1 := by
    dsimp only [Gen.V, Gen.hostOps0]; after_results; rfl
  rw [e]
  exact shapeCast_apply _ _ (ix2 (0 : Fin 1) (0 : Fin 1)) (ix1 (0 : Fin 1)) (by rw [Shape.rowMajor_val_one, Shape.rowMajor_val_two]; show (0 : Nat) = 0 * 1 + 0; omega)

end Cert.KernelIdeal.HostWindows

end
-- ==== Proof.KernelArray.lean ====
/-
  From the kernel's blocks to its whole result array.

  The grid has 16 points. Point `t` reads positions `256 t … 256 t + 255` of `x`, `e`, `d` (every batch entry,
  every feature), the three weight rows and the bias, and writes positions `256 t … 256 t + 255` of the result
  (every batch entry, every feature). The block it writes is, index by index, the row blend of the rows it read,
  which are the same rows of the argument arrays: so what point `t` writes back is block `t` of the one function
  `gated` of the argument arrays. The 16 blocks cover all 4096 positions, hence the result array IS `gated`.
-/
import proofs.«166364_j53884659695800_1_alg».proof.Proof.KernelBlock
import proofs.«166364_j53884659695800_1_alg».proof.Proof.KernelHostWindows

noncomputable section

namespace Cert.KernelIdeal.Array

open Cert.KernelIdeal Cert.KernelIdeal.Gen Idealize.ShloMosaic Idealize.ShloMosaic.TcCoe Idealize.SL.Sem
open Idealize.ShloMosaic.ValueIdx Cert.NodeGate
open Idealize.ShloMosaic.Pipeline (Dat)

variable (m : (ℓ : Loc nD τ sig) → Buf (Elt Ideal) ℓ) (ρ : Dev nD → PrngReg)

/-- The result array as the specification's function of the argument arrays as launched. -/
abbrev result (c : Dev nD) : S4096x8x512.Idx → EReal :=
  gated (m ((c : Thread nD τ).loc main_arg0)) (m ((c : Thread nD τ).loc main_arg1)) (m ((c : Thread nD τ).loc main_arg2))
    (m ((c : Thread nD τ).loc main_arg3)) (m ((c : Thread nD τ).loc main_arg4))

/-- The printed index maps, decided over the 16 points: the three big inputs move along their position axis with
    the output's leading axis and stay at block 0 elsewhere; the four small inputs stay at block 0; the output
    stays at block 0 on its batch and feature axes. -/
theorem idx_facts : ∀ t : Fin cfg0.N,
    (win0_0.index t (0 : Fin 3) = 0 ∧ win0_0.index t (1 : Fin 3) = win0_7.index t (0 : Fin 3) ∧ win0_0.index t (2 : Fin 3) = 0)
    ∧ (win0_1.index t (0 : Fin 3) = 0 ∧ win0_1.index t (1 : Fin 3) = win0_7.index t (0 : Fin 3) ∧ win0_1.index t (2 : Fin 3) = 0)
    ∧ (win0_2.index t (0 : Fin 3) = 0 ∧ win0_2.index t (1 : Fin 3) = win0_7.index t (0 : Fin 3) ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) ≤ 15 ∧ win0_7.index t (1 : Fin 3) = 0 ∧ win0_7.index t (2 : Fin 3) = 0) :=
  (by decide +kernel : ∀ t : Fin grid0.N, _)

/-- Every block of positions is some point's. -/
theorem idx_onto : ∀ q : Fin 16, ∃ t : Fin cfg0.N, win0_7.index t = ![q.val, 0, 0] :=
  (by decide +kernel : ∀ q : Fin 16, ∃ t : Fin grid0.N, win0_7.index t = ![q.val, 0, 0])

/-- WHAT POINT `t` WRITES BACK is block `t` of `result`. -/
theorem flushed_eq (c : Dev nD) (t : Fin cfg0.N) :
    (dats m 0 c).flushed 7 t = ((cfg0.win 7).blk t).view.read (Elt Ideal) (result m c) := by
  rw [ValueP.flushed7]
  obtain ⟨⟨a0, a1, a2⟩, ⟨b0, b1, b2⟩, ⟨c0, c1, c2⟩, ⟨d0, d1⟩, ⟨e0, e1⟩, ⟨f0, f1⟩, ⟨g0, g1⟩, ⟨o0, o1, o2⟩⟩ := idx_facts t
  funext y
  obtain ⟨s, b, h, rfl⟩ : ∃ (s : Fin 256) (b : Fin 8) (h : Fin 512), y = ix3 s b h := ⟨y 0, y 1, y 2, eq_ix3 y⟩
  show out0_7 (iblk m c 0 t) (iblk m c 1 t) (iblk m c 2 t) (iblk m c 3 t) (iblk m c 4 t) (iblk m c 5 t) (iblk m c 6 t) (ix3 s b h)
    = result m c (((cfg0.win 7).blk t).view.emb (ix3 s b h))
  refine (Block.out_at _ _ _ _ _ _ _ s b h).trans ?_
  -- the position the block index `s` stands for
  have hS : win0_7.index t (0 : Fin 3) * 256 + s.val < 4096 := by have := s.isLt; omega
  have hemb : ((cfg0.win 7).blk t).view.emb (ix3 s b h)
      = ix3 (⟨win0_7.index t (0 : Fin 3) * 256 + s.val, hS⟩ : Fin 4096) b h := by
    funext a; apply Fin.ext
    match a with
    | ⟨0, _⟩ => show win0_7.index t (0 : Fin 3) * 256 + 1 * s.val = win0_7.index t (0 : Fin 3) * 256 + s.val; omega
    | ⟨1, _⟩ => show win0_7.index t (1 : Fin 3) * 8 + 1 * b.val = b.val; omega
    | ⟨2, _⟩ => show win0_7.index t (2 : Fin 3) * 512 + 1 * h.val = h.val; omega
  rw [hemb]
  show _ = gatedAt _ _ _ _ _ (⟨win0_7.index t (0 : Fin 3) * 256 + s.val, hS⟩ : Fin 4096) b h
  unfold gatedAt
  -- each row the body read is the same row of an argument array
  have r0 : (fun k : Fin 512 => iblk m c 0 t (ix3 b s k))
      = fun k : Fin 512 => (m ((c : Thread nD τ).loc main_arg0) : S8x4096x512.Idx → EReal) (ix3 b (⟨win0_7.index t (0 : Fin 3) * 256 + s.val, hS⟩ : Fin 4096) k) := by
    funext k
    show V m c main_arg0 (((cfg0.win 0).blk t).view.emb (ix3 b s k)) = _
    rw [V_main_arg0]
    refine congrArg _ (funext fun a => Fin.ext ?_)
    match a with
    | ⟨0, _⟩ => show win0_0.index t (0 : Fin 3) * 8 + 1 * b.val = b.val; omega
    | ⟨1, _⟩ => show win0_0.index t (1 : Fin 3) * 256 + 1 * s.val = win0_7.index t (0 : Fin 3) * 256 + s.val; omega
    | ⟨2, _⟩ => show win0_0.index t (2 : Fin 3) * 512 + 1 * k.val = k.val; omega
  have r1 : (fun k : Fin 256 => iblk m c 1 t (ix3 b s k))
      = fun k : Fin 256 => (m ((c : Thread nD τ).loc main_arg1) : S8x4096x256.Idx → EReal) (ix3 b (⟨win0_7.index t (0 : Fin 3) * 256 + s.val, hS⟩ : Fin 4096) k) := by
    funext k
    show V m c main_arg1 (((cfg0.win 1).blk t).view.emb (ix3 b s k)) = _
    rw [V_main_arg1]
    refine congrArg _ (funext fun a => Fin.ext ?_)
    match a with
    | ⟨0, _⟩ => show win0_1.index t (0 : Fin 3) * 8 + 1 * b.val = b.val; omega
    | ⟨1, _⟩ => show win0_1.index t (1 : Fin 3) * 256 + 1 * s.val = win0_7.index t (0 : Fin 3) * 256 + s.val; omega
    | ⟨2, _⟩ => show win0_1.index t (2 : Fin 3) * 256 + 1 * k.val = k.val; omega
  have r2 : (fun k : Fin 256 => iblk m c 2 t (ix3 b s k))
      = fun k : Fin 256 => (m ((c : Thread nD τ).loc main_arg2) : S8x4096x256.Idx → EReal) (ix3 b (⟨win0_7.index t (0 : Fin 3) * 256 + s.val, hS⟩ : Fin 4096) k) := by
    funext k
    show V m c main_arg2 (((cfg0.win 2).blk t).view.emb (ix3 b s k)) = _
    rw [V_main_arg2]
    refine congrArg _ (funext fun a => Fin.ext ?_)
    match a with
    | ⟨0, _⟩ => show win0_2.index t (0 : Fin 3) * 8 + 1 * b.val = b.val; omega
    | ⟨1, _⟩ => show win0_2.index t (1 : Fin 3) * 256 + 1 * s.val = win0_7.index t (0 : Fin 3) * 256 + s.val; omega
    | ⟨2, _⟩ => show win0_2.index t (2 : Fin 3) * 256 + 1 * k.val = k.val; omega
  have r3 : (fun k : Fin 256 => iblk m c 3 t (ix2 (0 : Fin 1) k))
      = fun k : Fin 256 => wrow (m ((c : Thread nD τ).loc main_arg3)) k.val (by have := k.isLt; omega) := by
    funext k
    refine Eq.trans ?_ (HostWindows.weights_first m c k)
    show V m c main_v2 (((cfg0.win 3).blk t).view.emb (ix2 (0 : Fin 1) k)) = V m c main_v2 (ix2 (0 : Fin 1) k)
    refine congrArg _ (funext fun a => Fin.ext ?_)
    match a with
    | ⟨0, _⟩ => show win0_3.index t (0 : Fin 2) * 1 + 1 * 0 = 0; omega
    | ⟨1, _⟩ => show win0_3.index t (1 : Fin 2) * 256 + 1 * k.val = k.val; omega
  have r4 : (fun k : Fin 256 => iblk m c 4 t (ix2 (0 : Fin 1) k))
      = fun k : Fin 256 => wrow (m ((c : Thread nD τ).loc main_arg3)) (256 + k.val) (by have := k.isLt; omega) := by
    funext k
    refine Eq.trans ?_ (HostWindows.weights_second m c k)
    show V m c main_v5 (((cfg0.win 4).blk t).view.emb (ix2 (0 : Fin 1) k)) = V m c main_v5 (ix2 (0 : Fin 1) k)
    refine congrArg _ (funext fun a => Fin.ext ?_)
    match a with
    | ⟨0, _⟩ => show win0_4.index t (0 : Fin 2) * 1 + 1 * 0 = 0; omega
    | ⟨1, _⟩ => show win0_4.index t (1 : Fin 2) * 256 + 1 * k.val = k.val; omega
  have r5 : (fun k : Fin 512 => iblk m c 5 t (ix2 (0 : Fin 1) k))
      = fun k : Fin 512 => wrow (m ((c : Thread nD τ).loc main_arg3)) (512 + k.val) (by have := k.isLt; omega) := by
    funext k
    refine Eq.trans ?_ (HostWindows.weights_third m c k)
    show V m c main_v8 (((cfg0.win 5).blk t).view.emb (ix2 (0 : Fin 1) k)) = V m c main_v8 (ix2 (0 : Fin 1) k)
    refine congrArg _ (funext fun a => Fin.ext ?_)
    match a with
    | ⟨0, _⟩ => show win0_5.index t (0 : Fin 2) * 1 + 1 * 0 = 0; omega
    | ⟨1, _⟩ => show win0_5.index t (1 : Fin 2) * 512 + 1 * k.val = k.val; omega
  have r6 : iblk m c 6 t (ix2 (0 : Fin 1) (0 : Fin 1))
      = (m ((c : Thread nD τ).loc main_arg4) : S1.Idx → EReal) (ix1 (0 : Fin 1)) := by
    refine Eq.trans ?_ (HostWindows.bias_cell m c)
    show V m c main_v9 (((cfg0.win 6).blk t).view.emb (ix2 (0 : Fin 1) (0 : Fin 1))) = V m c main_v9 (ix2 (0 : Fin 1) (0 : Fin 1))
    refine congrArg _ (funext fun a => Fin.ext ?_)
    match a with
    | ⟨0, _⟩ => show win0_6.index t (0 : Fin 2) * 1 + 1 * 0 = 0; omega
    | ⟨1, _⟩ => show win0_6.index t (1 : Fin 2) * 1 + 1 * 0 = 0; omega
  rw [r0, r1, r2, r3, r4, r5, r6]

/-- An index of the result array is in point `t`'s block iff each coordinate is in the block's range on its axis. -/
theorem mem_blk (t : Fin cfg0.N) (i : S4096x8x512.Idx) :
    i ∈ ((cfg0.win 7).blk t).view.set ↔ ∀ a : Fin 3, win0_7.index t a * S256x8x512.size a ≤ (i a).val
      ∧ (i a).val < win0_7.index t a * S256x8x512.size a + S256x8x512.size a := by
  show i ∈ ((View.whole main_v10).slice (win0_7.rect t)).set ↔ _
  rw [View.set_slice_whole, Rect.mem_set_unit]
  exact Iff.rfl

/-- THE COVER: every index of the result array is in the block of the point that owns its position. -/
theorem cover (i : S4096x8x512.Idx) :
    ∃ t : Fin cfg0.N, (cfg0.win 7).flush t = true ∧ i ∈ ((cfg0.win 7).blk t).view.set := by
  have hi0 : (i 0).val < 4096 := (i 0).isLt
  have hi1 : (i 1).val < 8 := (i 1).isLt
  have hi2 : (i 2).val < 512 := (i 2).isLt
  obtain ⟨t, ht⟩ := idx_onto ⟨(i 0).val / 256, by omega⟩
  have q0 : win0_7.index t (0 : Fin 3) = (i 0).val / 256 := congrFun ht 0
  have q1 : win0_7.index t (1 : Fin 3) = 0 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 256 ≤ (i 0).val ∧ (i 0).val < win0_7.index t (0 : Fin 3) * 256 + 256; omega
  | ⟨1, _⟩ => show win0_7.index t (1 : Fin 3) * 8 ≤ (i 1).val ∧ (i 1).val < win0_7.index t (1 : Fin 3) * 8 + 8; omega
  | ⟨2, _⟩ => show win0_7.index t (2 : Fin 3) * 512 ≤ (i 2).val ∧ (i 2).val < win0_7.index t (2 : Fin 3) * 512 + 512; omega

/-- THE RESULT ARRAY after the run is the specification's function of the argument arrays. -/
theorem final (c : Dev nD) : (dats m 0 c).arrAt 7 cfg0.N = result m c :=
  (dats m 0 c).arrAt_eq_of_cover 7 (result m c) (fun t _ => flushed_eq m c t) cover

/-- The kernel's run: every weakly fair execution terminates with the result array at `result` and the arguments
    unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (ValueP.run_blocks m ρ)

end Cert.KernelIdeal.Array

end
-- ==== Proof.LibOneKeySoftmax.lean ====
/-
  GENERAL LEMMAS: a softmax over ONE key, and realness of a dot product, on the extended reals.

  jnp's softmax over an axis of length one prints as: the maximum over the axis from `-∞`, `max (-∞) ·` of that,
  the difference, its exponential, the sum over the axis from `0`, the quotient. For a REAL score `z` this is
  `exp (z - z) / (0 + exp (z - z)) = exp 0 / exp 0 = 1` (`softmax_one_key`); at an infinite score `z - z` is not
  `0`, so realness is needed exactly here. `real_dot` supplies it for a score that is a dot product of real
  vectors started from `0`; `fold_one` reads a fold over an axis of length one. Imports only the library.
-/
import Idealize.ShloMosaic.PureOps.Ideal
import Idealize.ShloMosaic.PureOps.Ideal.Laws
import Idealize.ShloMosaic.Lib.IdealHost

noncomputable section

namespace Cert.OneKeySoftmax

open Idealize.ShloMosaic
open scoped BigOperators

/-- The coercion of the reals into the extended reals commutes with finite sums. -/
theorem coe_sum {ι : Type*} (s : Finset ι) (a : ι → ℝ) :
    ((∑ k ∈ s, a k : ℝ) : EReal) = ∑ k ∈ s, (a k : EReal) := by
  classical
  induction s using Finset.induction_on with
  | empty => simp
  | insert i s hi ih => rw [Finset.sum_insert hi, Finset.sum_insert hi, EReal.coe_add, ih]

/-- A dot product of real-valued families, started from zero, is real. -/
theorem real_dot {ι : Type*} [Fintype ι] (f g : ι → EReal) (hf : ∀ k, ∃ r : ℝ, f k = r) (hg : ∀ k, ∃ r : ℝ, g k = r) :
    ∃ r : ℝ, (0 : EReal) + ∑ k, f k * g k = r := by
  choose a ha using hf
  choose b hb using hg
  refine ⟨∑ k, a k * b k, ?_⟩
  rw [zero_add, coe_sum]
  exact Finset.sum_congr rfl fun k _ => by rw [ha k, hb k, EReal.coe_mul]

/-- A fold over an axis of length one combines the one element with the starting value. -/
theorem fold_one {α : Type*} (op : α → α → α) [Std.Commutative op] [Std.Associative op] (z : α) (f : Fin 1 → α) :
    (Finset.univ : Finset (Fin 1)).fold op z f = op (f 0) z := by
  rw [show (Finset.univ : Finset (Fin 1)) = {0} from rfl, Finset.fold_singleton]

/-- The f32 pattern `0xFF800000` is `-∞`. -/
theorem ofBits_neg_inf : Ideal.ofBits .f32 0xFF800000#32 = ⊥ := by simp [Ideal.ofBits, Ideal.ieee]

theorem exp_zero : Ideal.exp 0 = 1 := by
  rw [← EReal.coe_zero, Ideal.exp_coe, Real.exp_zero, EReal.coe_one]

theorem div_one_one : Ideal.div 1 1 = 1 := by
  rw [Ideal.div, if_neg one_ne_zero, inv_one, mul_one]

/-- THE SOFTMAX OVER ONE KEY: for a real score `z`, with the maximum taken as jnp takes it
    (`max (-∞) z`), `exp (z - max) / (0 + Σ over the one key of exp (z - max)) = 1`. -/
theorem softmax_one_key (r : ℝ) :
    Ideal.div (Ideal.exp ((r : EReal) - max ⊥ (r : EReal)))
      ((0 : EReal) + ∑ _k : Fin 1, Ideal.exp ((r : EReal) - max ⊥ (r : EReal))) = 1 := by
  have hz : (r : EReal) - max ⊥ (r : EReal) = 0 := by
    rw [max_bot_left, ← EReal.coe_sub, sub_self, EReal.coe_zero]
  rw [hz, exp_zero, Fin.sum_univ_one, zero_add, div_one_one]

end Cert.OneKeySoftmax

end
-- ==== Proof.GateAlgebra.lean ====
/-
  The one counting fact that joins the two programs' dot products.

  A sum over 1024 terms is the sum of its first 256, its next 256 and its last 512 terms. This holds in any
  commutative additive monoid, so on the extended reals it needs no finiteness.
  (The facts about the softmax over one key and about real dot products are in Proof/LibOneKeySoftmax.lean.)
-/
import proofs.«166364_j53884659695800_1_alg».proof.Proof.LibOneKeySoftmax

noncomputable section

namespace Cert.NodeGate

open Idealize.ShloMosaic
open scoped BigOperators

/-- A sum over 1024 terms, split at 256 and at 512. -/
theorem sum_three_parts {M : Type*} [AddCommMonoid M] (f : Fin 1024 → M) :
    ∑ k, f k = (∑ k : Fin 256, f ⟨k.val, by have := k.isLt; omega⟩
        + ∑ k : Fin 256, f ⟨256 + k.val, by have := k.isLt; omega⟩)
      + ∑ k : Fin 512, f ⟨512 + k.val, by have := k.isLt; omega⟩ := by
  have h1 : ∑ k : Fin 1024, f k
      = ∑ i : Fin 512, f (Fin.castAdd 512 i) + ∑ i : Fin 512, f (Fin.natAdd 512 i) :=
    Fin.sum_univ_add (a := 512) (b := 512) f
  have h2 : ∑ i : Fin 512, f (Fin.castAdd 512 i)
      = ∑ i : Fin 256, f (Fin.castAdd 512 (Fin.castAdd 256 i)) + ∑ i : Fin 256, f (Fin.castAdd 512 (Fin.natAdd 256 i)) :=
    Fin.sum_univ_add (a := 256) (b := 256) (fun i => f (Fin.castAdd 512 i))
  rw [h1, h2]
  rfl

end Cert.NodeGate

end
-- ==== Proof.RefRows.lean ====
/-
  The reference program, row by row.

  The reference flattens (batch entry `b`, position `s`) to the row `n = 4096 b + s` of a 32768-row matrix.
  Row `n` of `xf` is `x[b, s, :]`; row `n` of `nf` is `e[b, s, :]` followed by `d[b, s, :]`.
  Its attention score `Σ_k nf[n,k] xf[n,k]` is a real number when the inputs are real, so the softmax over
  the single key, `exp (z - z) / (0 + exp (z - z))`, is exactly one, and `embed_e[n, :] = 1 · xf[n, :] = xf[n, :]`.
-/
import proofs.«166364_j53884659695800_1_alg».proof.Proof.PatchedReferenceRead
import proofs.«166364_j53884659695800_1_alg».proof.Proof.GateAlgebra
import Idealize.ShloMosaic.Lib.ValueIdx
import Idealize.ShloMosaic.Lib.Pipeline.Value
import Idealize.ShloMosaic.PureOps.Ideal.Laws
import Idealize.ShloMosaic.PureOps.Reduce
import Idealize.ShloMosaic.Lib.IdealHost

noncomputable section

namespace Cert.ReferenceIdeal.Rows

open Cert.ReferenceIdeal Cert.ReferenceIdeal.Gen Cert.ReferenceIdeal.ReadP Idealize.ShloMosaic Idealize.ShloMosaic.ValueIdx
open Cert.NodeGate Cert.OneKeySoftmax
open scoped BigOperators

/-- The flattened row of batch entry `b` and position `s`. -/
abbrev rowOf (b : Fin 8) (s : Fin 4096) : Fin 32768 :=
  ⟨b.val * 4096 + s.val, by have := b.isLt; have := s.isLt; omega⟩

variable (x : (⟨S8x4096x512, .f32⟩ : BufTy).Contents (Elt Ideal))
variable (e d : (⟨S8x4096x256, .f32⟩ : BufTy).Contents (Elt Ideal))

/-! ## The reshapes and the two concatenations -/

/-- Row `n` of `xf` is the feature row `x[b, s, :]`. -/
theorem xf_at (b : Fin 8) (s : Fin 4096) (k : Fin 512) :
    val_main_v1 (F := Ideal) x (ix2 (rowOf b s) k) = x (ix3 b s k) := by
  rw [val_main_v1_apply]
  refine congrArg x (funext fun a => Fin.ext ?_)
  have hb := b.isLt; have hs := s.isLt; have hk := k.isLt
  match a with
  | ⟨0, _⟩ => show ((b.val * 4096 + s.val) * 512 + k.val) / 2097152 = b.val; omega
  | ⟨1, _⟩ => show ((b.val * 4096 + s.val) * 512 + k.val) / 512 % 4096 = s.val; omega
  | ⟨2, _⟩ => show ((b.val * 4096 + s.val) * 512 + k.val) % 512 = k.val; omega

/-- The concatenated node features, lanes 0–255: `e`. -/
theorem node_lo (b : Fin 8) (s : Fin 4096) (k : Fin 256) :
    val_main_v0 (F := Ideal) e d (ix3 b s (⟨k.val, by have := k.isLt; omega⟩ : Fin 512)) = e (ix3 b s k) := by
  unfold val_main_v0
  refine concatenate_pair_apply_left (t := S8x4096x512) (s₁ := S8x4096x256) (s₂ := S8x4096x256) (2 : Fin 3) e d _
    (ix3 b s (⟨k.val, by have := k.isLt; omega⟩ : Fin 512)) rfl (ix3 b s k) (fun a => ?_)
  match a with
  | ⟨0, _⟩ => rfl
  | ⟨1, _⟩ => rfl
  | ⟨2, _⟩ => rfl

/-- The concatenated node features, lanes 256–511: `d`. -/
theorem node_hi (b : Fin 8) (s : Fin 4096) (k : Fin 256) :
    val_main_v0 (F := Ideal) e d (ix3 b s (⟨256 + k.val, by have := k.isLt; omega⟩ : Fin 512)) = d (ix3 b s k) := by
  unfold val_main_v0
  refine concatenate_pair_apply_right (t := S8x4096x512) (s₁ := S8x4096x256) (s₂ := S8x4096x256) (2 : Fin 3) e d _
    (ix3 b s (⟨256 + k.val, by have := k.isLt; omega⟩ : Fin 512)) rfl rfl (ix3 b s k) (fun a hne => ?_) ?_
  · match a with
    | ⟨0, _⟩ => rfl
    | ⟨1, _⟩ => rfl
    | ⟨2, _⟩ => exact absurd rfl hne
  · show k.val + 256 = 256 + k.val; omega

/-- Row `n` of `nf` at a lane `k` is the concatenated node features at `(b, s, k)`. -/
theorem nf_at (b : Fin 8) (s : Fin 4096) (k : Fin 512) :
    val_main_v2 (F := Ideal) e d (ix2 (rowOf b s) k) = val_main_v0 (F := Ideal) e d (ix3 b s k) := by
  rw [val_main_v2_apply]
  refine congrArg _ (funext fun a => Fin.ext ?_)
  have hb := b.isLt; have hs := s.isLt; have hk := k.isLt
  match a with
  | ⟨0, _⟩ => show ((b.val * 4096 + s.val) * 512 + k.val) / 2097152 = b.val; omega
  | ⟨1, _⟩ => show ((b.val * 4096 + s.val) * 512 + k.val) / 512 % 4096 = s.val; omega
  | ⟨2, _⟩ => show ((b.val * 4096 + s.val) * 512 + k.val) % 512 = k.val; omega

theorem nf_lo (b : Fin 8) (s : Fin 4096) (k : Fin 256) :
    val_main_v2 (F := Ideal) e d (ix2 (rowOf b s) (⟨k.val, by have := k.isLt; omega⟩ : Fin 512)) = e (ix3 b s k) :=
  (nf_at e d b s _).trans (node_lo e d b s k)

theorem nf_hi (b : Fin 8) (s : Fin 4096) (k : Fin 256) :
    val_main_v2 (F := Ideal) e d (ix2 (rowOf b s) (⟨256 + k.val, by have := k.isLt; omega⟩ : Fin 512)) = d (ix3 b s k) :=
  (nf_at e d b s _).trans (node_hi e d b s k)

/-- Every entry of `nf` is real when `e` and `d` are. -/
theorem nf_real (he : ∀ i, ∃ r : ℝ, e i = r) (hd : ∀ i, ∃ r : ℝ, d i = r) (b : Fin 8) (s : Fin 4096) (k : Fin 512) :
    ∃ r : ℝ, val_main_v2 (F := Ideal) e d (ix2 (rowOf b s) k) = r := by
  by_cases hk : k.val < 256
  · obtain ⟨r, hr⟩ := he (ix3 b s (⟨k.val, hk⟩ : Fin 256))
    exact ⟨r, (nf_lo e d b s ⟨k.val, hk⟩).trans hr⟩
  · have hk2 := k.isLt
    have hk' : k = (⟨256 + (k.val - 256), by omega⟩ : Fin 512) := Fin.ext (by show k.val = 256 + (k.val - 256); omega)
    obtain ⟨r, hr⟩ := hd (ix3 b s (⟨k.val - 256, by omega⟩ : Fin 256))
    rw [hk']
    exact ⟨r, (nf_hi e d b s ⟨k.val - 256, by omega⟩).trans hr⟩

/-! ## The attention score and the softmax over its one key -/

/-- The score of row `n`: the dot product of the row's node features with its features, from zero. -/
theorem score_at (b : Fin 8) (s : Fin 4096) :
    val_main_v5 (F := Ideal) x e d (ix2 (rowOf b s) (0 : Fin 1))
      = (0 : EReal) + ∑ k : Fin 512, val_main_v2 (F := Ideal) e d (ix2 (rowOf b s) k) * val_main_v1 (F := Ideal) x (ix2 (rowOf b s) k) := by
  rw [val_main_v5_apply]
  have hi : idx_main_v5 (ix2 (rowOf b s) (0 : Fin 1)) = ix1 (rowOf b s) := funext fun a => by match a with | ⟨0, _⟩ => rfl
  rw [hi, val_main_v4_apply, val_main_cst_apply, Ideal.ofBits_def, Ideal.ofBits_zero_f32]
  refine congrArg _ (Finset.sum_congr rfl fun k _ => ?_)
  have hk : idx_main_v4 (ix1 (rowOf b s)) k = ix2 (rowOf b s) k := funext fun a => by match a with | ⟨0, _⟩ => rfl | ⟨1, _⟩ => rfl
  rw [hk, val_main_v3_apply]
  rfl

/-- The score is a real number when the inputs are. -/
theorem score_real (hx : ∀ i, ∃ r : ℝ, x i = r) (he : ∀ i, ∃ r : ℝ, e i = r) (hd : ∀ i, ∃ r : ℝ, d i = r)
    (b : Fin 8) (s : Fin 4096) : ∃ r : ℝ, val_main_v5 (F := Ideal) x e d (ix2 (rowOf b s) (0 : Fin 1)) = r := by
  rw [score_at]
  exact real_dot _ _ (fun k => nf_real e d he hd b s k) (fun k => by rw [xf_at]; exact hx _)

/-- Dropping the key axis of the `32768 × 1` score column leaves the `32768` rows. -/
theorem reduces_keys : S32768x1.Reduces [1] S32768 := by decide

/-- Row `n` with its one key put back is `(n, 0)`. -/
theorem lift_key (b : Fin 8) (s : Fin 4096) (k : Fin 1) :
    reduces_keys.lift (ix1 (rowOf b s)) k = ix2 (rowOf b s) (0 : Fin 1) := by
  funext a; apply Fin.ext
  have := k.isLt
  match a with
  | ⟨0, _⟩ => rfl
  | ⟨1, _⟩ => show k.val = 0; omega

/-- The maximum over the one key, taken from `-∞`, is the score. -/
theorem rowmax_at (b : Fin 8) (s : Fin 4096) :
    val_main_v6 (F := Ideal) x e d (ix1 (rowOf b s)) = val_main_v5 (F := Ideal) x e d (ix2 (rowOf b s) (0 : Fin 1)) := by
  unfold val_main_v6
  refine (Host.reduce_eq_fold_single FloatOps.maximumf _ _ _ reduces_keys _ (ix1 (rowOf b s))).trans ?_
  refine (fold_one (FloatOps.maximumf (F := Ideal) (φ := .f32)) _ _).trans ?_
  rw [Ideal.maximumf_def, val_main_cst_0_apply, Ideal.ofBits_def, ofBits_neg_inf, max_bot_right]
  exact congrArg (val_main_v5 (F := Ideal) x e d) (lift_key b s 0)

/-- The shifted exponential of the score: `exp (z - max (-∞) z)`. -/
theorem shifted_exp_at (b : Fin 8) (s : Fin 4096) :
    val_main_v11 (F := Ideal) x e d (ix2 (rowOf b s) (0 : Fin 1))
      = Ideal.exp (val_main_v5 (F := Ideal) x e d (ix2 (rowOf b s) (0 : Fin 1))
          - max ⊥ (val_main_v5 (F := Ideal) x e d (ix2 (rowOf b s) (0 : Fin 1)))) := by
  rw [val_main_v11_apply, val_main_v10_apply, val_main_v9_apply]
  have hi : idx_main_v9 (ix2 (rowOf b s) (0 : Fin 1)) = ix1 (rowOf b s) := funext fun a => by match a with | ⟨0, _⟩ => rfl
  rw [hi, val_main_v8_apply, val_main_v7_apply, val_main_cst_1_apply, rowmax_at]
  simp only [Ideal.hostUnary_exp_def, Ideal.subf_def, Ideal.maximumf_def, Ideal.ofBits_def, ofBits_neg_inf]

/-- THE ATTENTION WEIGHT IS ONE: the softmax over the single key, at a real score. -/
theorem attention_one (b : Fin 8) (s : Fin 4096) (r : ℝ)
    (hr : val_main_v5 (F := Ideal) x e d (ix2 (rowOf b s) (0 : Fin 1)) = r) :
    val_main_v14 (F := Ideal) x e d (ix2 (rowOf b s) (0 : Fin 1)) = 1 := by
  rw [val_main_v14_apply, val_main_v13_apply]
  have hi : idx_main_v13 (ix2 (rowOf b s) (0 : Fin 1)) = ix1 (rowOf b s) := funext fun a => by match a with | ⟨0, _⟩ => rfl
  rw [hi, val_main_v12_apply, val_main_cst_2_apply, Ideal.ofBits_def, Ideal.ofBits_zero_f32]
  have hk : ∀ k : Fin 1, idx_main_v12 (ix1 (rowOf b s)) k = ix2 (rowOf b s) (0 : Fin 1) := fun k =>
    funext fun a => Fin.ext (by
      have := k.isLt
      match a with
      | ⟨0, _⟩ => rfl
      | ⟨1, _⟩ => show k.val = 0; omega)
  simp only [hk, shifted_exp_at, hr, Ideal.hostDivf_def]
  exact softmax_one_key r

/-- So `embed_e`'s row `n` is the feature row itself. -/
theorem embed_at (b : Fin 8) (s : Fin 4096) (r : ℝ)
    (hr : val_main_v5 (F := Ideal) x e d (ix2 (rowOf b s) (0 : Fin 1)) = r) (k : Fin 512) :
    val_main_v16 (F := Ideal) x e d (ix2 (rowOf b s) k) = x (ix3 b s k) := by
  rw [val_main_v16_apply, val_main_v15_apply]
  have hi : idx_main_v15 (ix2 (rowOf b s) k) = ix2 (rowOf b s) (0 : Fin 1) := funext fun a => by match a with | ⟨0, _⟩ => rfl | ⟨1, _⟩ => rfl
  rw [hi, attention_one x e d b s r hr, xf_at, Ideal.mulf_def, one_mul]

end Cert.ReferenceIdeal.Rows

end
-- ==== Proof.RefGate.lean ====
/-
  The reference program's gate and result, row by row.

  The 1024 features of row `n` are its node features (`e` then `d`) followed by `embed_e`'s row, which is
  the feature row `x[b, s, :]` itself (the attention weight is one). Their dot product with the weight column is
  the sum of three partial dot products, of 256, 256 and 512 terms. The gate is `1 / (1 + exp (-(dot + bias)))`,
  which is the logistic function by its definition on the extended reals; the result is the blend of the row
  with itself, laid out position-major.
-/
import proofs.«166364_j53884659695800_1_alg».proof.Proof.RefRows
import proofs.«166364_j53884659695800_1_alg».proof.Proof.GateSpec

noncomputable section

namespace Cert.ReferenceIdeal.Gate

open Cert.ReferenceIdeal Cert.ReferenceIdeal.Gen Cert.ReferenceIdeal.ReadP Idealize.ShloMosaic Idealize.ShloMosaic.ValueIdx
open Cert.NodeGate Cert.ReferenceIdeal.Rows
open scoped BigOperators

variable (x : (⟨S8x4096x512, .f32⟩ : BufTy).Contents (Elt Ideal))
variable (e d : (⟨S8x4096x256, .f32⟩ : BufTy).Contents (Elt Ideal))
variable (w : (⟨S1024x1, .f32⟩ : BufTy).Contents (Elt Ideal))
variable (β : (⟨S1, .f32⟩ : BufTy).Contents (Elt Ideal))

/-- The 1024 concatenated features, lanes 0–511: the node features. -/
theorem cat_lo (b : Fin 8) (s : Fin 4096) (k : Fin 512) :
    val_main_v17 (F := Ideal) x e d (ix2 (rowOf b s) (⟨k.val, by have := k.isLt; omega⟩ : Fin 1024))
      = val_main_v2 (F := Ideal) e d (ix2 (rowOf b s) k) := by
  unfold val_main_v17
  refine concatenate_pair_apply_left (t := S32768x1024) (s₁ := S32768x512) (s₂ := S32768x512) (1 : Fin 2) _ _ _
    (ix2 (rowOf b s) (⟨k.val, by have := k.isLt; omega⟩ : Fin 1024)) rfl (ix2 (rowOf b s) k) (fun a => ?_)
  match a with
  | ⟨0, _⟩ => rfl
  | ⟨1, _⟩ => rfl

/-- Lanes 512–1023: `embed_e`. -/
theorem cat_hi (b : Fin 8) (s : Fin 4096) (k : Fin 512) :
    val_main_v17 (F := Ideal) x e d (ix2 (rowOf b s) (⟨512 + k.val, by have := k.isLt; omega⟩ : Fin 1024))
      = val_main_v16 (F := Ideal) x e d (ix2 (rowOf b s) k) := by
  unfold val_main_v17
  refine concatenate_pair_apply_right (t := S32768x1024) (s₁ := S32768x512) (s₂ := S32768x512) (1 : Fin 2) _ _ _
    (ix2 (rowOf b s) (⟨512 + k.val, by have := k.isLt; omega⟩ : Fin 1024)) rfl rfl (ix2 (rowOf b s) k) (fun a hne => ?_) ?_
  · match a with
    | ⟨0, _⟩ => rfl
    | ⟨1, _⟩ => exact absurd rfl hne
  · show k.val + 512 = 512 + k.val; omega

/-- THE DOT PRODUCT with the weight column is the three partial dot products. -/
theorem dot_at (b : Fin 8) (s : Fin 4096) (r : ℝ)
    (hr : val_main_v5 (F := Ideal) x e d (ix2 (rowOf b s) (0 : Fin 1)) = r) :
    val_main_v18 (F := Ideal) x e d w (ix2 (rowOf b s) (0 : Fin 1))
      = (∑ k : Fin 256, e (ix3 b s k) * wrow w k.val (by have := k.isLt; omega)
          + ∑ k : Fin 256, d (ix3 b s k) * wrow w (256 + k.val) (by have := k.isLt; omega))
        + ∑ k : Fin 512, x (ix3 b s k) * wrow w (512 + k.val) (by have := k.isLt; omega) := by
  rw [val_main_v18_apply]
  have hl : ∀ k : Fin 1024, lidx_main_v18 (ix2 (rowOf b s) (0 : Fin 1)) k = ix2 (rowOf b s) k := fun k =>
    funext fun a => by match a with | ⟨0, _⟩ => rfl | ⟨1, _⟩ => rfl
  have hrr : ∀ k : Fin 1024, ridx_main_v18 (ix2 (rowOf b s) (0 : Fin 1)) k = ix2 k (0 : Fin 1) := fun k =>
    funext fun a => by match a with | ⟨0, _⟩ => rfl | ⟨1, _⟩ => rfl
  simp only [hl, hrr]
  refine (sum_three_parts (fun k : Fin 1024 => val_main_v17 (F := Ideal) x e d (ix2 (rowOf b s) k) * w (ix2 k (0 : Fin 1)))).trans ?_
  refine congrArg₂ (· + ·) (congrArg₂ (· + ·) (Finset.sum_congr rfl fun k _ => ?_) (Finset.sum_congr rfl fun k _ => ?_))
    (Finset.sum_congr rfl fun k _ => ?_)
  · exact congrArg (fun t => t * w (ix2 (⟨k.val, by have := k.isLt; omega⟩ : Fin 1024) (0 : Fin 1)))
      ((cat_lo x e d b s ⟨k.val, by have := k.isLt; omega⟩).trans (nf_lo e d b s k))
  · exact congrArg (fun t => t * w (ix2 (⟨256 + k.val, by have := k.isLt; omega⟩ : Fin 1024) (0 : Fin 1)))
      ((cat_lo x e d b s ⟨256 + k.val, by have := k.isLt; omega⟩).trans (nf_hi e d b s k))
  · exact congrArg (fun t => t * w (ix2 (⟨512 + k.val, by have := k.isLt; omega⟩ : Fin 1024) (0 : Fin 1)))
      ((cat_hi x e d b s k).trans (embed_at x e d b s r hr k))

/-- THE GATE: `1 / (1 + exp (-(dot + bias)))` is the logistic of the score. -/
theorem gate_at (b : Fin 8) (s : Fin 4096) :
    val_main_v27 (F := Ideal) x e d w β (ix2 (rowOf b s) (0 : Fin 1))
      = Ideal.logistic (val_main_v18 (F := Ideal) x e d w (ix2 (rowOf b s) (0 : Fin 1)) + β (ix1 (0 : Fin 1))) := by
  rw [val_main_v27_apply, val_main_v26_apply, val_main_cst_4_apply, val_main_v25_apply, val_main_v24_apply,
    val_main_cst_3_apply, val_main_v23_apply, val_main_v22_apply, val_main_v21_apply, val_main_v20_apply, val_main_v19_apply]
  have hb : idx_main_v19 (idx_main_v20 (ix2 (rowOf b s) (0 : Fin 1))) = ix1 (0 : Fin 1) :=
    funext fun a => by match a with | ⟨0, _⟩ => rfl
  rw [hb]
  simp only [Ideal.ofBits_def, Ideal.ofBits_one_f32, Ideal.hostDivf_def, Ideal.addf_def, Ideal.hostUnary_exp_def,
    Ideal.hostNegf_def, Ideal.negf_def]
  rfl

/-- THE REFERENCE'S RESULT at (position `s`, batch entry `b`, feature `h`) is the specification's blend, for real
    inputs. -/
theorem result_at (hx : ∀ i, ∃ r : ℝ, x i = r) (he : ∀ i, ∃ r : ℝ, e i = r) (hd : ∀ i, ∃ r : ℝ, d i = r)
    (s : Fin 4096) (b : Fin 8) (h : Fin 512) :
    val_main_v36 (F := Ideal) x e d w β (ix3 s b h) = gatedAt x e d w β s b h := by
  obtain ⟨r, hr⟩ := score_real x e d hx he hd b s
  rw [val_main_v36_apply]
  have h36 : idx_main_v36 (ix3 s b h) = ix3 b s h :=
    funext fun a => by match a with | ⟨0, _⟩ => rfl | ⟨1, _⟩ => rfl | ⟨2, _⟩ => rfl
  rw [h36, val_main_v35_apply]
  have h35 : idx_main_v35 (ix3 b s h) = ix2 (rowOf b s) h := by
    funext a; apply Fin.ext
    have hb := b.isLt; have hs := s.isLt; have hh := h.isLt
    match a with
    | ⟨0, _⟩ => show ((b.val * 4096 + s.val) * 512 + h.val) / 512 = b.val * 4096 + s.val; omega
    | ⟨1, _⟩ => show ((b.val * 4096 + s.val) * 512 + h.val) % 512 = h.val; omega
  rw [h35, val_main_v34_apply, val_main_v31_apply, val_main_v33_apply, val_main_v30_apply, val_main_v32_apply,
    val_main_v29_apply, val_main_v28_apply, val_main_cst_5_apply]
  have h30 : idx_main_v30 (ix2 (rowOf b s) h) = ix2 (rowOf b s) (0 : Fin 1) :=
    funext fun a => by match a with | ⟨0, _⟩ => rfl | ⟨1, _⟩ => rfl
  have h32 : idx_main_v32 (ix2 (rowOf b s) h) = ix2 (rowOf b s) (0 : Fin 1) :=
    funext fun a => by match a with | ⟨0, _⟩ => rfl | ⟨1, _⟩ => rfl
  rw [h30, h32, gate_at, dot_at x e d w b s r hr, embed_at x e d b s r hr, xf_at]
  simp only [Ideal.ofBits_def, Ideal.ofBits_one_f32, Ideal.addf_def, Ideal.mulf_def, Ideal.subf_def]
  rfl

/-- The reference's whole result array is the specification's function of real arguments. -/
theorem result_eq (hx : ∀ i, ∃ r : ℝ, x i = r) (he : ∀ i, ∃ r : ℝ, e i = r) (hd : ∀ i, ∃ r : ℝ, d i = r) :
    val_main_v36 (F := Ideal) x e d w β = gated x e d w β := by
  funext i
  obtain ⟨s, b, h, rfl⟩ : ∃ (s : Fin 4096) (b : Fin 8) (h : Fin 512), i = ix3 s b h := ⟨i 0, i 1, i 2, eq_ix3 i⟩
  exact result_at x e d w β hx he hd s b h

end Cert.ReferenceIdeal.Gate

end
-- ==== Proof.LibFiniteReal.lean ====
/-
  GENERAL LEMMAS: a `finite inputs` precondition read back on the extended reals.

  A precondition of the form `jnp.all (jnp.abs a < inf)` prints as a host `reduce` by `and`, from the constant
  one, of the comparison `|a| < +∞` against the f32 pattern `0x7F800000` broadcast from a scalar. On the extended
  reals `|v| = max v (-v)` is `+∞` at both infinities, so `|v| < +∞` says exactly that `v` is a real number.
  `real_of_all` turns ONE such conjunct, for an array of any shape reduced over any axes into a scalar, into
  `∀ i, ∃ r : ℝ, a i = r`. Imports only the library.
-/
import Idealize.ShloMosaic.Lib.ReduceAll
import Idealize.ShloMosaic.Lib.ValueIdx
import Idealize.ShloMosaic.PureOps.Ideal

noncomputable section

namespace Cert.FiniteReal

open Idealize.ShloMosaic Idealize.ShloMosaic.ValueIdx

/-- The f32 pattern `0x7F800000` is `+∞`. -/
theorem ofBits_pos_inf : Ideal.ofBits .f32 0x7F800000#32 = ⊤ := by simp [Ideal.ofBits, Ideal.ieee]

/-- `|v| < +∞` on the extended reals: `v` is real. -/
theorem real_of_abs_lt (v : EReal)
    (h : Ideal.cmp .olt (max v (-v)) (Ideal.ofBits .f32 0x7F800000#32) = 1#1) : ∃ r : ℝ, v = r := by
  rw [ofBits_pos_inf] at h
  induction v using EReal.rec with
  | bot =>
    exfalso
    rw [EReal.neg_bot, max_eq_right bot_le] at h
    simp [Ideal.cmp] at h
  | coe r => exact ⟨r, rfl⟩
  | top =>
    exfalso
    rw [max_eq_left le_top] at h
    simp [Ideal.cmp] at h

/-- A scalar has one index. -/
instance scalarIdx_subsingleton : Subsingleton (⟨0, ![]⟩ : Shape).Idx := ⟨fun a b => funext fun d => d.elim0⟩

/-- ONE CONJUNCT OF THE PRECONDITION, read back: an array whose `all (|a| < +∞)` is one has real entries. -/
theorem real_of_all {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (h : Host.reduce IntOp.andi
        (cmpf .olt (Host.absf a) (broadcastInDim s ![] hb (constant (F := Ideal) (⟨0, ![]⟩ : Shape) .f32 0x7F800000#32)))
        (constantI (⟨0, ![]⟩ : Shape) 1 1#1) hr hu ix0 = 1#1) (i : s.Idx) : ∃ r : ℝ, a i = r :=
  real_of_abs_lt (a i) (Host.reduce_andi_all _ _ hr hu ix0 h i)

end Cert.FiniteReal

end
-- ==== Proof.InputsReal.lean ====
/-
  What the precondition gives: every entry of the three feature arrays is a real number.

  `finite_inputs` is the conjunction, over the five arguments, of `all (|a| < +∞)`; each conjunct says that the
  array's entries are real numbers (Proof/LibFiniteReal.lean). Only `x`, `e` and `d` are needed: the attention
  score must be real for the softmax over its one key to be one.
-/
import proofs.«166364_j53884659695800_1_alg».proof.Pre_finite_inputs
import proofs.«166364_j53884659695800_1_alg».proof.Proof.LibFiniteReal

noncomputable section

namespace Cert.Pre_finite_inputs.Real

open Cert.Pre_finite_inputs Idealize.ShloMosaic Idealize.ShloMosaic.ValueIdx Cert.FiniteReal

variable [Facts]

/-- THE PRECONDITION READ BACK: `x`, `e` and `d` are real-valued. -/
theorem inputs_real (a0 : FVec Ideal S8x4096x512 .f32) (a1 a2 : FVec Ideal S8x4096x256 .f32) (a3 : FVec Ideal S1024x1 .f32)
    (a4 : FVec Ideal S1 .f32) (h : fn (F := Ideal) a0 a1 a2 a3 a4 = fun _ => 1#1) :
    (∀ i, ∃ r : ℝ, a0 i = r) ∧ (∀ i, ∃ r : ℝ, a1 i = r) ∧ (∀ i, ∃ r : ℝ, a2 i = r) := by
  have h0 := congrFun h ix0
  dsimp only [fn, fn_part1, Idealize.ShloMosaic.andi] at h0
  obtain ⟨h0, -⟩ := IntOp.andi_eq_one.1 h0
  obtain ⟨h0, -⟩ := IntOp.andi_eq_one.1 h0
  obtain ⟨h0, hd⟩ := IntOp.andi_eq_one.1 h0
  obtain ⟨hx, he⟩ := IntOp.andi_eq_one.1 h0
  exact ⟨real_of_all a0 _ _ _ hx, real_of_all a1 _ _ _ he, real_of_all a2 _ _ _ hd⟩

end Cert.Pre_finite_inputs.Real

end
-- ==== Proof.lean ====
/-
  A gated blend of node features, computed by a tiled kernel and by a plain array program: the two agree on
  the extended reals, for finite inputs.

  THE FUNCTION. For a batch entry `b`, a position `s` and a feature `h`, with `x` of shape 8 × 4096 × 512,
  `e` and `d` of shape 8 × 4096 × 256, a weight column `w` of 1024 rows and a bias `β`:
      z(b, s)    = ((Σ_k e[b,s,k] w[k] + Σ_k d[b,s,k] w[256 + k]) + Σ_k x[b,s,k] w[512 + k]) + β
      c(b, s)    = logistic z(b, s) = 1 / (1 + exp (-z(b, s)))
      out[s,b,h] = (1 - c(b, s)) · x[b,s,h] + c(b, s) · x[b,s,h]
  (`Cert.NodeGate.gated`, Proof/GateSpec.lean).

  THE KERNEL walks the 4096 positions in 16 blocks of 256. At each block it forms the three partial dot products
  as lane sums against the broadcast weight rows, adds them and the bias, takes the logistic, blends, and swaps the
  two leading axes; block `t` of its result is block `t` of `gated`, and the blocks cover the array
  (Proof/KernelBlock.lean, Proof/KernelHostWindows.lean, Proof/KernelArray.lean).

  THE REFERENCE flattens (b, s) to a row `n = 4096 b + s`, weighs the feature row by a softmax over ONE key,
  concatenates the node features and the weighted features into 1024 columns, multiplies by `w`, adds `β`,
  and spells the logistic out as `1 / (1 + exp (-·))`. The softmax over one key is `exp (a - a) / (0 + exp (a - a))`,
  which is one exactly when the attention score `a` is a real number; that is where the precondition is used
  (at an infinite score `a - a` is not zero). With the weight equal to one the 1024-term dot product is the sum of
  the kernel's three partial sums — addition on the extended reals is associative and commutative, no finiteness
  needed there — and `1 / (1 + exp (-z))` is the logistic function by its definition
  (Proof/RefRows.lean, Proof/RefGate.lean, Proof/GateAlgebra.lean, Proof/InputsReal.lean).

  The three frames: the two kernels' are the generated frame certificates; the reference has no kernel, and its
  frame is its run with the result dropped. The idealization rewrote no operation, so `preserves` is `True`.
-/
import proofs.«166364_j53884659695800_1_alg».proof.Defs
import proofs.«166364_j53884659695800_1_alg».proof.Proof.Gen.Kernel
import proofs.«166364_j53884659695800_1_alg».proof.Proof.Gen.Kernel.Frame
import proofs.«166364_j53884659695800_1_alg».proof.Proof.Gen.KernelIdeal
import proofs.«166364_j53884659695800_1_alg».proof.Proof.Gen.KernelIdeal.Frame
import proofs.«166364_j53884659695800_1_alg».proof.Proof.Gen.ReferenceIdeal
import proofs.«166364_j53884659695800_1_alg».proof.Proof.Gen.Pre_finite_inputs
import proofs.«166364_j53884659695800_1_alg».proof.Proof.KernelArray
import proofs.«166364_j53884659695800_1_alg».proof.Proof.RefGate
import proofs.«166364_j53884659695800_1_alg».proof.Proof.InputsReal
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end with the result array at `gated` of the (agreeing, real-valued) argument arrays. -/
theorem algebraic : Cert.algebraic_KernelIdeal_ReferenceIdeal := by
  intro m ρ m' ρ' hpre hagree
  refine ⟨fun c => Cert.KernelIdeal.Array.result m c, Cert.KernelIdeal.Array.run m ρ, ?_⟩
  refine (θ_run Cert.ReferenceIdeal.defs _ _).mono (fun _ h c => ⟨(h c).1.trans ?_, (h c).2⟩)
    (Cert.ReferenceIdeal.ValueP.run (F := Ideal) m' ρ')
  obtain ⟨hx, he, hd⟩ := Cert.Pre_finite_inputs.Real.inputs_real _ _ _ _ _ (hpre c)
  rw [Cert.ReferenceIdeal.ReadP.val_main_v36_eq, (hagree c).1, (hagree c).2.1, (hagree c).2.2.1, (hagree c).2.2.2.1,
    (hagree c).2.2.2.2]
  exact Cert.ReferenceIdeal.Gate.result_eq _ _ _ _ _ hx he hd

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
